-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_arg9 : FVec F S128x1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x1 .f32) (main_arg8 : FVec F S1 .f32) (main_arg9 : FVec F S128x1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128 .f32) (main_arg6 : FVec F S128 .f32) (main_arg7 : FVec F S128x1 .f32) (main_arg8 : FVec F S1 .f32) (main_arg9 : FVec F S128x1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x1 : Shape := ⟨2, ![1, 1]⟩
abbrev S100000x1 : Shape := ⟨2, ![100000, 1]⟩
abbrev S5000x1 : Shape := ⟨2, ![5000, 1]⟩
abbrev S100000 : Shape := ⟨1, ![100000]⟩

abbrev nBuf : Space → Nat
  | .hbm => 68
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x128, .f32⟩
  | .hbm, ⟨28, _⟩ => ⟨S100000x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x1, .f32⟩
  | .hbm, ⟨66, _⟩ => ⟨S100000x1, .f32⟩
  | .hbm, ⟨67, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x1, .f32⟩
  | .local _ .vmem, ⟨22, _⟩ => ⟨S1x1, .f32⟩
  | .local _ .vmem, ⟨23, _⟩ => ⟨S128x1, .f32⟩
  | .local _ .vmem, ⟨24, _⟩ => ⟨S5000x1, .f32⟩
  | .local _ .vmem, ⟨25, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S100000x128 : S_.BroadcastsInDim S100000x128 (![] : Fin 0 → Fin S100000x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S1x1 : Shape := ⟨2, ![1, 1]⟩
abbrev S100000 : Shape := ⟨1, ![100000]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibDenseLayers.lean ====
/-
  Two dense layers of a graph network, entry by entry, on the extended reals.

  A graph-convolution layer sends node i's aggregated neighbour features A(i, ·) through a matrix Wr, adds a bias row B, and
  adds the node's own features X(i, ·) sent through a second matrix Wo:
      conv(i, j) = Σ_k A(i, k) · Wr(k, j)  +  B(0, j)  +  Σ_k X(i, k) · Wo(k, j).
  Batch normalisation followed by the rectifier, with the column statistics given as one-row matrices (the column mean Mu,
  the column's reciprocal deviation S, the scale Ga and the shift Be):
      bnrelu(i, j) = max( Ga(0, j) · ((H(i, j) − Mu(0, j)) · S(0, j)) + Be(0, j),  0 ).
  An entry depends on row i of the node arrays only, which is why a program that walks the nodes in blocks of rows and a
  program that works on the whole arrays compute the same matrix.  Nothing here mentions a program.
-/
import Idealize.ShloMosaic.PureOps.Ideal
import Idealize.ShloMosaic.Lib.ValueIdx

noncomputable section

namespace Cert.GnnSpec

open Idealize.ShloMosaic Idealize.ShloMosaic.ValueIdx

/-- An n × c matrix of extended reals. -/
abbrev Mat (n c : ℕ) : Type := (⟨2, ![n, c]⟩ : Shape).Idx → EReal

/-- The f32 zero word read as an extended real (the rectifier's threshold). -/
abbrev zeroWord : EReal := Ideal.ofBits .f32 0x00000000#32

/-- A graph-convolution layer's linear combination, entry by entry. -/
def conv {n K C : ℕ} (A X : Mat n K) (Wr Wo : Mat K C) (B : Mat 1 C) : Mat n C := fun i =>
  (∑ k : Fin K, A (ix2 (i 0) k) * Wr (ix2 k (i 1))) + B (ix2 (0 : Fin 1) (i 1))
    + ∑ k : Fin K, X (ix2 (i 0) k) * Wo (ix2 k (i 1))

theorem conv_apply {n K C : ℕ} (A X : Mat n K) (Wr Wo : Mat K C) (B : Mat 1 C) (p : Fin n) (q : Fin C) :
    conv A X Wr Wo B (ix2 p q)
      = (∑ k : Fin K, A (ix2 p k) * Wr (ix2 k q)) + B (ix2 (0 : Fin 1) q) + ∑ k : Fin K, X (ix2 p k) * Wo (ix2 k q) := rfl

/-- Batch normalisation by given column statistics, then the rectifier, entry by entry. -/
def bnrelu {n C : ℕ} (H : Mat n C) (Mu S Ga Be : Mat 1 C) : Mat n C := fun i =>
  max (Ga (ix2 (0 : Fin 1) (i 1)) * ((H i - Mu (ix2 (0 : Fin 1) (i 1))) * S (ix2 (0 : Fin 1) (i 1)))
    + Be (ix2 (0 : Fin 1) (i 1))) zeroWord

theorem bnrelu_apply {n C : ℕ} (H : Mat n C) (Mu S Ga Be : Mat 1 C) (p : Fin n) (q : Fin C) :
    bnrelu H Mu S Ga Be (ix2 p q)
      = max (Ga (ix2 (0 : Fin 1) q) * ((H (ix2 p q) - Mu (ix2 (0 : Fin 1) q)) * S (ix2 (0 : Fin 1) q))
          + Be (ix2 (0 : Fin 1) q)) zeroWord := rfl

end Cert.GnnSpec

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.LibDenseHost.lean ====
/-
  The whole-array spelling of the two dense layers is the entry-by-entry specification.

  A host program writes a graph-convolution layer as two matrix products and a bias vector laid along the rows by two
  broadcasts, added left to right; read at an entry (p, q) the products are the sums over the feature axis, the broadcast
  bias is its entry q, and a vector reshaped to a one-row matrix reads the same entry at (0, q): the specification's `conv`.
  It writes batch normalisation with the rectifier as  max(((γ · (h − μ)) · s) + β, 0)  over broadcast rows; the
  specification multiplies in the other order, γ · ((h − μ) · s), and the two agree because multiplication of extended reals
  is associative (no finiteness is needed: 0 · ∞ = 0 is part of that monoid).
-/
import proofs.«180626_j58274116272537_1_alg».proof.Proof.LibDenseLayers
import proofs.«180626_j58274116272537_1_alg».proof.Proof.LibPlainMatmul
import proofs.«180626_j58274116272537_1_alg».proof.Proof.LibVecBcast
import proofs.«180626_j58274116272537_1_alg».proof.Proof.LibRowVector
import Idealize.ShloMosaic.PureOps.Ideal.Laws
import Idealize.ShloMosaic.Lib.Pipeline.Value

noncomputable section

namespace Cert.GnnSpec

open Idealize.ShloMosaic Idealize.ShloMosaic.ValueIdx

/-- A scalar constant laid over a matrix reads, at any entry, the constant's value. -/
theorem splat_apply {n C : ℕ} (h0 : (⟨0, ![]⟩ : Shape).BroadcastsInDim ⟨2, ![n, C]⟩ ![]) (w : BitVec 32)
    (i : (⟨2, ![n, C]⟩ : Shape).Idx) :
    broadcastInDim ⟨2, ![n, C]⟩ ![] h0 (constant (F := Ideal) ⟨0, ![]⟩ .f32 w) i = Ideal.ofBits .f32 w :=
  broadcastInDim_apply ![] h0 _ i ix0 (fun a => a.elim0)

/-- Two products and a broadcast bias, added left to right, are the graph-convolution layer entry by entry. -/
theorem conv_host {n K C : ℕ}
    (wf : DotDims.WF (⟨2, ![n, K]⟩ : Shape) (⟨2, ![K, C]⟩ : Shape) (⟨2, ![n, C]⟩ : Shape) [1] [0] [0] [1] [] [])
    (h1 : (⟨1, ![C]⟩ : Shape).BroadcastsInDim ⟨2, ![1, C]⟩ ![1])
    (h2 : (⟨2, ![1, C]⟩ : Shape).BroadcastsInDim ⟨2, ![n, C]⟩ ![0, 1])
    (hc : (⟨1, ![C]⟩ : Shape).ShapeCasts ⟨2, ![1, C]⟩)
    (A X : FVec Ideal (⟨2, ![n, K]⟩ : Shape) .f32) (Wr Wo : FVec Ideal (⟨2, ![K, C]⟩ : Shape) .f32)
    (b : FVec Ideal (⟨1, ![C]⟩ : Shape) .f32) :
    addf (addf (Host.dotGeneral (PlainMatmul.plain wf) none A Wr)
        (broadcastInDim ⟨2, ![n, C]⟩ ![0, 1] h2 (broadcastInDim ⟨2, ![1, C]⟩ ![1] h1 b)))
      (Host.dotGeneral (PlainMatmul.plain wf) none X Wo)
      = conv A X Wr Wo (shapeCast ⟨2, ![1, C]⟩ b hc) := by
  funext i
  obtain ⟨p, q, rfl⟩ : ∃ (p : Fin n) (q : Fin C), i = ix2 p q := ⟨i 0, i 1, eq_ix2 i⟩
  rw [conv_apply, addf_apply, addf_apply, VecBcast.rowVec_bcast_apply, RowVector.shapeCast_b_1b_apply]
  simp only [Host.dotGeneral]
  rw [PlainMatmul.dotGeneral_apply, PlainMatmul.dotGeneral_apply]

/-- The host's batch normalisation and rectifier over broadcast rows is the specification's, entry by entry. -/
theorem bnrelu_host {n C : ℕ}
    (h0 : (⟨0, ![]⟩ : Shape).BroadcastsInDim ⟨2, ![n, C]⟩ ![])
    (h1 : (⟨1, ![C]⟩ : Shape).BroadcastsInDim ⟨2, ![1, C]⟩ ![1])
    (h2 : (⟨2, ![1, C]⟩ : Shape).BroadcastsInDim ⟨2, ![n, C]⟩ ![0, 1])
    (hc : (⟨1, ![C]⟩ : Shape).ShapeCasts ⟨2, ![1, C]⟩)
    (H : FVec Ideal (⟨2, ![n, C]⟩ : Shape) .f32) (mu s ga be : FVec Ideal (⟨1, ![C]⟩ : Shape) .f32) :
    maximumf (addf (mulf (mulf (broadcastInDim ⟨2, ![n, C]⟩ ![0, 1] h2 (broadcastInDim ⟨2, ![1, C]⟩ ![1] h1 ga))
            (subf H (broadcastInDim ⟨2, ![n, C]⟩ ![0, 1] h2 (broadcastInDim ⟨2, ![1, C]⟩ ![1] h1 mu))))
          (broadcastInDim ⟨2, ![n, C]⟩ ![0, 1] h2 (broadcastInDim ⟨2, ![1, C]⟩ ![1] h1 s)))
        (broadcastInDim ⟨2, ![n, C]⟩ ![0, 1] h2 (broadcastInDim ⟨2, ![1, C]⟩ ![1] h1 be)))
      (broadcastInDim ⟨2, ![n, C]⟩ ![] h0 (constant (F := Ideal) ⟨0, ![]⟩ .f32 0x00000000#32))
      = bnrelu H (shapeCast ⟨2, ![1, C]⟩ mu hc) (shapeCast ⟨2, ![1, C]⟩ s hc) (shapeCast ⟨2, ![1, C]⟩ ga hc)
          (shapeCast ⟨2, ![1, C]⟩ be hc) := by
  funext i
  obtain ⟨p, q, rfl⟩ : ∃ (p : Fin n) (q : Fin C), i = ix2 p q := ⟨i 0, i 1, eq_ix2 i⟩
  rw [bnrelu_apply, maximumf_apply, addf_apply, mulf_apply, mulf_apply, subf_apply, splat_apply]
  rw [VecBcast.rowVec_bcast_apply, VecBcast.rowVec_bcast_apply, VecBcast.rowVec_bcast_apply, VecBcast.rowVec_bcast_apply,
    RowVector.shapeCast_b_1b_apply, RowVector.shapeCast_b_1b_apply, RowVector.shapeCast_b_1b_apply,
    RowVector.shapeCast_b_1b_apply, mul_assoc]

end Cert.GnnSpec

end
-- ==== Proof.RefStages.lean ====
/-
  The reference's three dense stages are the specification applied to its earlier stages.

  The first layer's output is `conv` of the aggregated neighbours, the node features, the two weight matrices and the bias
  vector read as a one-row matrix; the normalised, rectified features are `bnrelu` of that output and of the column
  statistics, each read as a one-row matrix; the second layer's output is `conv` again, over the second aggregation and the
  rectified features.  Each is the host spelling of the layer (products, broadcast rows, sums left to right) read entry by
  entry.
-/
import proofs.«180626_j58274116272537_1_alg».proof.Proof.Gen.ReferenceIdeal.Read
import proofs.«180626_j58274116272537_1_alg».proof.Proof.LibDenseHost

noncomputable section

namespace Cert.ReferenceIdeal.Stages

open Cert.ReferenceIdeal Cert.ReferenceIdeal.Gen Cert.ReferenceIdeal.Read Cert.GnnSpec Idealize.ShloMosaic

/-- The first layer: aggregated neighbours through the relation weights, plus the bias, plus the node's own features through
    the root weights. -/
theorem layer1 (hc : (⟨1, ![128]⟩ : Shape).ShapeCasts ⟨2, ![1, 128]⟩) (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v19 (F := Ideal) x0 x1 x2 x3 x4
      = conv (val_main_v13 (F := Ideal) x0 x1) x0 x2 x4 (shapeCast ⟨2, ![1, 128]⟩ x3 hc) := by
  unfold val_main_v19 val_main_v17 val_main_v18 val_main_v14 val_main_v16 val_main_v15
  exact conv_host dot_S100000x64_S64x128_S100000x128_1_0_0_1_n_n_wf bcast_S128_S1x128_1 bcast_S1x128_S100000x128_0_1 hc _ _ _ _ _

/-- Batch normalisation by the first layer's column mean and reciprocal deviation, the scale and the shift, then the rectifier. -/
theorem norm (hc : (⟨1, ![128]⟩ : Shape).ShapeCasts ⟨2, ![1, 128]⟩) (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 : (⟨S128, .f32⟩ : BufTy).Contents (Elt Ideal)) :
    val_main_v45 (F := Ideal) x0 x1 x2 x3 x4 x5 x6
      = bnrelu (val_main_v19 (F := Ideal) x0 x1 x2 x3 x4) (shapeCast ⟨2, ![1, 128]⟩ (val_main_v22 (F := Ideal) x0 x1 x2 x3 x4) hc)
          (shapeCast ⟨2, ![1, 128]⟩ (val_main_v38 (F := Ideal) x0 x1 x2 x3 x4) hc) (shapeCast ⟨2, ![1, 128]⟩ x5 hc)
          (shapeCast ⟨2, ![1, 128]⟩ x6 hc) := by
  unfold val_main_v45 val_main_v44 val_main_v41 val_main_v43 val_main_v42 val_main_v35 val_main_v40 val_main_v39 val_main_v34
    val_main_v33 val_main_v32 val_main_v31 val_main_v30 val_main_call0_v0 val_main_call0_cst
  exact bnrelu_host bcast_S_S100000x128 bcast_S128_S1x128_1 bcast_S1x128_S100000x128_0_1 hc _ _ _ _ _

/-- The second layer, into one output column. -/
theorem layer2 (hc : (⟨1, ![1]⟩ : Shape).ShapeCasts ⟨2, ![1, 1]⟩) (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x1, .f32⟩ : BufTy).Contents (Elt Ideal)) :
    val_main_v61 (F := Ideal) x0 x1 x2 x3 x4 x5 x6 x7 x8 x9
      = conv (val_main_v55 (F := Ideal) x0 x1 x2 x3 x4 x5 x6) (val_main_v45 (F := Ideal) x0 x1 x2 x3 x4 x5 x6) x7 x9 (shapeCast ⟨2, ![1, 1]⟩ x8 hc) := by
  unfold val_main_v61 val_main_v59 val_main_v60 val_main_v56 val_main_v58 val_main_v57
  exact conv_host dot_S100000x128_S128x1_S100000x1_1_0_0_1_n_n_wf bcast_S1_S1x1_1 bcast_S1x1_S100000x1_0_1 hc _ _ _ _ _

end Cert.ReferenceIdeal.Stages

end
-- ==== Proof.ConvFirst.lean ====
/-
  The first graph convolution, block by block.

  The nodes are walked in 20 blocks of 5000 rows.  At block t the program holds rows 5000·t … 5000·t + 4999 of the
  aggregated neighbour features A and of the node features X (all 64 feature columns), and the whole of the two weight
  matrices Wr, Wo and of the bias row B.  It forms  a·Wr + B + x·Wo  on the block, the contracted feature axis summed over
  its 64 entries, and writes the 5000 × 128 result to the same rows of the output.  Entry (i, j) of the layer depends on row i
  of A and X only, so each block written is the block of the whole-array layer  conv A X Wr Wo B,  and the 20 blocks tile the
  100000 rows: the output array is that layer.
-/
import proofs.«180626_j58274116272537_1_alg».proof.Proof.Gen.KernelIdeal.Frame
import proofs.«180626_j58274116272537_1_alg».proof.Proof.LibDenseLayers
import proofs.«180626_j58274116272537_1_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.ConvFirst

open Cert.KernelIdeal Cert.KernelIdeal.Gen Cert.GnnSpec
open Idealize.ShloMosaic Idealize.ShloMosaic.ValueIdx Idealize.ShloMosaic.TcCoe Idealize.SL.Sem
open Idealize.ShloMosaic.Pipeline (Dat)

/-- The zero offsets of a whole-block access. -/
theorem zero_offsets : (![0, 0] : Fin 2 → Nat) = fun _ => 0 := funext fun a => by fin_cases a <;> rfl

/-! ## One entry of a block's result -/

/-- Entry (p, q) of what the body forms from a block of rows `a`, `x`, the weights `wr`, `wo` and the bias row `b`:
    row p of `a` against column q of `wr`, plus the bias at q, plus row p of `x` against column q of `wo`.  The
    roundings to the narrow format are the identity on the extended reals, and both products start from the zero splat. -/
theorem block_entry (a x : Vec Ideal S5000x64 .f32) (wr wo : Vec Ideal S64x128 .f32) (b : Vec Ideal S1x128 .f32)
    (p : Fin 5000) (q : Fin 128) :
    k0_pay1 (F := Ideal) a x wr wo b (ix2 p q)
      = (∑ k : Fin 64, a (ix2 p k) * wr (ix2 k q)) + b (ix2 (0 : Fin 1) q) + ∑ k : Fin 64, x (ix2 p k) * wo (ix2 k q) := by
  unfold k0_pay1
  simp only [shapeCast_self]
  refine congrArg₂ (· + ·) (congrArg₂ (· + ·) ?_ ?_) ?_
  · exact PlainMatmul.matmul_zero_apply dot_S5000x64_S64x128_S5000x128_1_0_0_1_n_n_wf none _ _ p q
  · exact broadcastTo_1b_ab_apply b _ p q
  · exact PlainMatmul.matmul_zero_apply dot_S5000x64_S64x128_S5000x128_1_0_0_1_n_n_wf none _ _ p q

/-! ## Where the blocks sit in the arrays -/

/-- Over the 20 blocks: the two row-blocked inputs and the output sit at block t of the rows and at all their columns;
    the weights and the bias row are taken whole. -/
theorem block_positions : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (V : (c : Dev nD) → (b : Ref sig .tc) → Buf (Elt Ideal) ((c : Thread nD τ).loc b))

/-- Block t of the aggregated neighbour features is rows 5000·t … of that array. -/
theorem rows_agg (c : Dev nD) (t : Fin cfg0.N) (y : S5000x64.Idx) (i : S100000x64.Idx)
    (h0 : (i 0).val = t.val * 5000 + (y 0).val) (h1 : (i 1).val = (y 1).val) :
    (iblk0 (F := Ideal) V c 0 t : Vec Ideal S5000x64 .f32) y = V c main_v13 i := by
  obtain ⟨⟨e0, e1⟩, -⟩ := block_positions t
  show V c main_v13 (((cfg0.win 0).blk t).view.emb y) = V c main_v13 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Block t of the node features is rows 5000·t … of that array. -/
theorem rows_feat (c : Dev nD) (t : Fin cfg0.N) (y : S5000x64.Idx) (i : S100000x64.Idx)
    (h0 : (i 0).val = t.val * 5000 + (y 0).val) (h1 : (i 1).val = (y 1).val) :
    (iblk0 (F := Ideal) V c 1 t : Vec Ideal S5000x64 .f32) y = V c main_arg0 i := by
  obtain ⟨-, ⟨e0, e1⟩, -⟩ := block_positions t
  show V c main_arg0 (((cfg0.win 1).blk t).view.emb y) = V c main_arg0 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- The neighbour weights are held whole at every block. -/
theorem whole_wr (c : Dev nD) (t : Fin cfg0.N) (y : S64x128.Idx) (i : S64x128.Idx)
    (h0 : (i 0).val = (y 0).val) (h1 : (i 1).val = (y 1).val) :
    (iblk0 (F := Ideal) V c 2 t : Vec Ideal S64x128 .f32) y = V c main_arg2 i := by
  obtain ⟨-, -, ⟨e0, e1⟩, -⟩ := block_positions t
  show V c main_arg2 (((cfg0.win 2).blk t).view.emb y) = V c main_arg2 i
  refine congrArg _ (funext fun a => Fin.ext ?_)
  match a with
  | ⟨0, _⟩ => show win0_2.index t (0 : Fin 2) * 64 + 1 * (y 0).val = (i 0).val; omega
  | ⟨1, _⟩ => show win0_2.index t (1 : Fin 2) * 128 + 1 * (y 1).val = (i 1).val; omega

/-- The bias row is held whole at every block. -/
theorem whole_bias (c : Dev nD) (t : Fin cfg0.N) (y : S1x128.Idx) (i : S1x128.Idx)
    (h0 : (i 0).val = (y 0).val) (h1 : (i 1).val = (y 1).val) :
    (iblk0 (F := Ideal) V c 3 t : Vec Ideal S1x128 .f32) y = V c main_v14 i := by
  obtain ⟨-, -, -, ⟨e0, e1⟩, -⟩ := block_positions t
  show V c main_v14 (((cfg0.win 3).blk t).view.emb y) = V c main_v14 i
  refine congrArg _ (funext fun a => Fin.ext ?_)
  match a with
  | ⟨0, _⟩ => show win0_3.index t (0 : Fin 2) * 1 + 1 * (y 0).val = (i 0).val; omega
  | ⟨1, _⟩ => show win0_3.index t (1 : Fin 2) * 128 + 1 * (y 1).val = (i 1).val; omega

/-- The node's own weights are held whole at every block. -/
theorem whole_wo (c : Dev nD) (t : Fin cfg0.N) (y : S64x128.Idx) (i : S64x128.Idx)
    (h0 : (i 0).val = (y 0).val) (h1 : (i 1).val = (y 1).val) :
    (iblk0 (F := Ideal) V c 4 t : Vec Ideal S64x128 .f32) y = V c main_arg4 i := by
  obtain ⟨-, -, -, -, ⟨e0, e1⟩, -⟩ := block_positions t
  show V c main_arg4 (((cfg0.win 4).blk t).view.emb y) = V c main_arg4 i
  refine congrArg _ (funext fun a => Fin.ext ?_)
  match a with
  | ⟨0, _⟩ => show win0_4.index t (0 : Fin 2) * 64 + 1 * (y 0).val = (i 0).val; omega
  | ⟨1, _⟩ => show win0_4.index t (1 : Fin 2) * 128 + 1 * (y 1).val = (i 1).val; omega

/-! ## What a block writes back -/

/-- The layer at an array index whose row is row p of block t: the block's own entry (p, q). -/
theorem layer_at_block_row (c : Dev nD) (t : Fin cfg0.N) (p : Fin 5000) (q : Fin 128) (i : S100000x128.Idx)
    (h0 : (i 0).val = t.val * 5000 + p.val) (h1 : (i 1).val = q.val) :
    k0_pay1 (F := Ideal) (iblk0 V c 0 t) (iblk0 V c 1 t) (iblk0 V c 2 t) (iblk0 V c 4 t) (iblk0 V c 3 t) (ix2 p q)
      = conv (V c main_v13) (V c main_arg0) (V c main_arg2) (V c main_arg4) (V c main_v14) i := by
  rw [block_entry]
  unfold conv
  refine congrArg₂ (· + ·) (congrArg₂ (· + ·) (Finset.sum_congr rfl fun k _ => congrArg₂ (· * ·) ?_ ?_) ?_)
    (Finset.sum_congr rfl fun k _ => congrArg₂ (· * ·) ?_ ?_)
  · exact rows_agg V c t (ix2 p k) (ix2 (i 0) k) h0 rfl
  · exact whole_wr V c t (ix2 k q) (ix2 k (i 1)) rfl h1
  · exact whole_bias V c t (ix2 (0 : Fin 1) q) (ix2 (0 : Fin 1) (i 1)) rfl h1
  · exact rows_feat V c t (ix2 p k) (ix2 (i 0) k) h0 rfl
  · exact whole_wo V c t (ix2 k q) (ix2 k (i 1)) rfl h1

/-- WHAT BLOCK t WRITES BACK is block t of the layer of the arrays as the region finds them. -/
theorem flushed_eq (c : Dev nD) (t : Fin cfg0.N) :
    (dat0 (F := Ideal) V c).flushed 5 t
      = ((cfg0.win 5).blk t).view.read (Elt Ideal)
          (conv (V c main_v13) (V c main_arg0) (V c main_arg2) (V c main_arg4) (V c main_v14)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x128) zero_offsets,
    View.ld_unit_zero (S := S1x128) zero_offsets]
  obtain ⟨-, -, -, -, -, ⟨e0, e1⟩⟩ := block_positions t
  funext j
  show k0_pay1 (F := Ideal) (iblk0 V c 0 t) (iblk0 V c 1 t) (iblk0 V c 2 t) (iblk0 V c 4 t) (iblk0 V c 3 t) j
      = conv (V c main_v13) (V c main_arg0) (V c main_arg2) (V c main_arg4) (V c main_v14) (((cfg0.win 5).blk t).view.emb j)
  refine (congrArg _ (eq_ix2 j)).trans (layer_at_block_row V c t (j 0) (j 1) _ ?_ ?_)
  · show win0_5.index t (0 : Fin 2) * 5000 + 1 * (j 0).val = t.val * 5000 + (j 0).val; omega
  · show win0_5.index t (1 : Fin 2) * 128 + 1 * (j 1).val = (j 1).val; omega

/-! ## The blocks tile the rows -/

/-- An index of the output is in block t iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- Row r is in block r / 5000. -/
theorem cover (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  have ht : t.val = (i 0).val / 5000 := rfl
  obtain ⟨-, -, -, -, -, ⟨e0, e1⟩⟩ := block_positions t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The output array -/

/-- THE ARRAY the first graph convolution leaves: the layer of the arrays it found, entry by entry. -/
theorem arr (c : Dev nD) :
    (Gen.dat0 (F := Ideal) V c).arrAt 5 cfg0.N
      = GnnSpec.conv (V c main_v13) (V c main_arg0) (V c main_arg2) (V c main_arg4) (V c main_v14) :=
  (dat0 (F := Ideal) V c).arrAt_eq_of_cover 5 _ (fun t _ => flushed_eq V c t) cover

end Cert.KernelIdeal.ConvFirst

end
-- ==== Proof.ConvSecond.lean ====
/-
  The second graph convolution, block by block.

  The nodes are walked in 20 blocks of 5000 rows.  At block t the program holds rows 5000·t … 5000·t + 4999 of the
  aggregated neighbour features A and of the node features X (all 128 feature columns), and the whole of the two weight
  columns Wr, Wo and of the one-entry bias B.  It forms  a·Wr + B + x·Wo  on the block, the contracted feature axis summed
  over its 128 entries, and writes the 5000 × 1 result to the same rows of the output.  Entry (i, 0) of the layer depends on
  row i of A and X only, so each block written is the block of the whole-array layer  conv A X Wr Wo B,  and the 20 blocks tile
  the 100000 rows: the output array is that layer.
-/
import proofs.«180626_j58274116272537_1_alg».proof.Proof.Gen.KernelIdeal.Frame
import proofs.«180626_j58274116272537_1_alg».proof.Proof.LibDenseLayers
import proofs.«180626_j58274116272537_1_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.ConvSecond

open Cert.KernelIdeal Cert.KernelIdeal.Gen Cert.GnnSpec
open Idealize.ShloMosaic Idealize.ShloMosaic.ValueIdx Idealize.ShloMosaic.TcCoe Idealize.SL.Sem
open Idealize.ShloMosaic.Pipeline (Dat)

/-- The zero offsets of a whole-block access. -/
theorem zero_offsets : (![0, 0] : Fin 2 → Nat) = fun _ => 0 := funext fun a => by fin_cases a <;> rfl

/-! ## One entry of a block's result -/

/-- Entry (p, q) of what the body forms from a block of rows `a`, `x`, the weight columns `wr`, `wo` and the one-entry bias `b`:
    row p of `a` against column q of `wr`, plus the bias at q, plus row p of `x` against column q of `wo`.  The
    roundings to the narrow format are the identity on the extended reals, and both products start from the zero splat. -/
theorem block_entry (a x : Vec Ideal S5000x128 .f32) (wr wo : Vec Ideal S128x1 .f32) (b : Vec Ideal S1x1 .f32)
    (p : Fin 5000) (q : Fin 1) :
    k2_pay1 (F := Ideal) a x wr wo b (ix2 p q)
      = (∑ k : Fin 128, a (ix2 p k) * wr (ix2 k q)) + b (ix2 (0 : Fin 1) q) + ∑ k : Fin 128, x (ix2 p k) * wo (ix2 k q) := by
  unfold k2_pay1
  simp only [shapeCast_self]
  refine congrArg₂ (· + ·) (congrArg₂ (· + ·) ?_ ?_) ?_
  · exact PlainMatmul.matmul_zero_apply dot_S5000x128_S128x1_S5000x1_1_0_0_1_n_n_wf none _ _ p q
  · exact broadcastTo_1b_ab_apply b _ p q
  · exact PlainMatmul.matmul_zero_apply dot_S5000x128_S128x1_S5000x1_1_0_0_1_n_n_wf none _ _ p q

/-! ## Where the blocks sit in the arrays -/

/-- Over the 20 blocks: the two row-blocked inputs and the output sit at block t of the rows and at all their columns;
    the weight columns and the one-entry bias are taken whole. -/
theorem block_positions : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

variable (V : (c : Dev nD) → (b : Ref sig .tc) → Buf (Elt Ideal) ((c : Thread nD τ).loc b))

/-- Block t of the aggregated neighbour features is rows 5000·t … of that array. -/
theorem rows_agg (c : Dev nD) (t : Fin cfg2.N) (y : S5000x128.Idx) (i : S100000x128.Idx)
    (h0 : (i 0).val = t.val * 5000 + (y 0).val) (h1 : (i 1).val = (y 1).val) :
    (iblk2 (F := Ideal) V c 0 t : Vec Ideal S5000x128 .f32) y = V c main_v43 i := by
  obtain ⟨⟨e0, e1⟩, -⟩ := block_positions t
  show V c main_v43 (((cfg2.win 0).blk t).view.emb y) = V c main_v43 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- Block t of the node features is rows 5000·t … of that array. -/
theorem rows_feat (c : Dev nD) (t : Fin cfg2.N) (y : S5000x128.Idx) (i : S100000x128.Idx)
    (h0 : (i 0).val = t.val * 5000 + (y 0).val) (h1 : (i 1).val = (y 1).val) :
    (iblk2 (F := Ideal) V c 1 t : Vec Ideal S5000x128 .f32) y = V c main_v33 i := by
  obtain ⟨-, ⟨e0, e1⟩, -⟩ := block_positions t
  show V c main_v33 (((cfg2.win 1).blk t).view.emb y) = V c main_v33 i
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- The neighbour weights are held whole at every block. -/
theorem whole_wr (c : Dev nD) (t : Fin cfg2.N) (y : S128x1.Idx) (i : S128x1.Idx)
    (h0 : (i 0).val = (y 0).val) (h1 : (i 1).val = (y 1).val) :
    (iblk2 (F := Ideal) V c 2 t : Vec Ideal S128x1 .f32) y = V c main_arg7 i := by
  obtain ⟨-, -, ⟨e0, e1⟩, -⟩ := block_positions t
  show V c main_arg7 (((cfg2.win 2).blk t).view.emb y) = V c main_arg7 i
  refine congrArg _ (funext fun a => Fin.ext ?_)
  match a with
  | ⟨0, _⟩ => show win2_2.index t (0 : Fin 2) * 128 + 1 * (y 0).val = (i 0).val; omega
  | ⟨1, _⟩ => show win2_2.index t (1 : Fin 2) * 1 + 1 * (y 1).val = (i 1).val; omega

/-- The one-entry bias is held whole at every block. -/
theorem whole_bias (c : Dev nD) (t : Fin cfg2.N) (y : S1x1.Idx) (i : S1x1.Idx)
    (h0 : (i 0).val = (y 0).val) (h1 : (i 1).val = (y 1).val) :
    (iblk2 (F := Ideal) V c 3 t : Vec Ideal S1x1 .f32) y = V c main_v44 i := by
  obtain ⟨-, -, -, ⟨e0, e1⟩, -⟩ := block_positions t
  show V c main_v44 (((cfg2.win 3).blk t).view.emb y) = V c main_v44 i
  refine congrArg _ (funext fun a => Fin.ext ?_)
  match a with
  | ⟨0, _⟩ => show win2_3.index t (0 : Fin 2) * 1 + 1 * (y 0).val = (i 0).val; omega
  | ⟨1, _⟩ => show win2_3.index t (1 : Fin 2) * 1 + 1 * (y 1).val = (i 1).val; omega

/-- The node's own weights are held whole at every block. -/
theorem whole_wo (c : Dev nD) (t : Fin cfg2.N) (y : S128x1.Idx) (i : S128x1.Idx)
    (h0 : (i 0).val = (y 0).val) (h1 : (i 1).val = (y 1).val) :
    (iblk2 (F := Ideal) V c 4 t : Vec Ideal S128x1 .f32) y = V c main_arg9 i := by
  obtain ⟨-, -, -, -, ⟨e0, e1⟩, -⟩ := block_positions t
  show V c main_arg9 (((cfg2.win 4).blk t).view.emb y) = V c main_arg9 i
  refine congrArg _ (funext fun a => Fin.ext ?_)
  match a with
  | ⟨0, _⟩ => show win2_4.index t (0 : Fin 2) * 128 + 1 * (y 0).val = (i 0).val; omega
  | ⟨1, _⟩ => show win2_4.index t (1 : Fin 2) * 1 + 1 * (y 1).val = (i 1).val; omega

/-! ## What a block writes back -/

/-- The layer at an array index whose row is row p of block t: the block's own entry (p, q). -/
theorem layer_at_block_row (c : Dev nD) (t : Fin cfg2.N) (p : Fin 5000) (q : Fin 1) (i : S100000x1.Idx)
    (h0 : (i 0).val = t.val * 5000 + p.val) (h1 : (i 1).val = q.val) :
    k2_pay1 (F := Ideal) (iblk2 V c 0 t) (iblk2 V c 1 t) (iblk2 V c 2 t) (iblk2 V c 4 t) (iblk2 V c 3 t) (ix2 p q)
      = conv (V c main_v43) (V c main_v33) (V c main_arg7) (V c main_arg9) (V c main_v44) i := by
  rw [block_entry]
  unfold conv
  refine congrArg₂ (· + ·) (congrArg₂ (· + ·) (Finset.sum_congr rfl fun k _ => congrArg₂ (· * ·) ?_ ?_) ?_)
    (Finset.sum_congr rfl fun k _ => congrArg₂ (· * ·) ?_ ?_)
  · exact rows_agg V c t (ix2 p k) (ix2 (i 0) k) h0 rfl
  · exact whole_wr V c t (ix2 k q) (ix2 k (i 1)) rfl h1
  · exact whole_bias V c t (ix2 (0 : Fin 1) q) (ix2 (0 : Fin 1) (i 1)) rfl h1
  · exact rows_feat V c t (ix2 p k) (ix2 (i 0) k) h0 rfl
  · exact whole_wo V c t (ix2 k q) (ix2 k (i 1)) rfl h1

/-- WHAT BLOCK t WRITES BACK is block t of the layer of the arrays as the region finds them. -/
theorem flushed_eq (c : Dev nD) (t : Fin cfg2.N) :
    (dat2 (F := Ideal) V c).flushed 5 t
      = ((cfg2.win 5).blk t).view.read (Elt Ideal)
          (conv (V c main_v43) (V c main_v33) (V c main_arg7) (V c main_arg9) (V c main_v44)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x1) zero_offsets,
    View.ld_unit_zero (S := S1x1) zero_offsets]
  obtain ⟨-, -, -, -, -, ⟨e0, e1⟩⟩ := block_positions t
  funext j
  show k2_pay1 (F := Ideal) (iblk2 V c 0 t) (iblk2 V c 1 t) (iblk2 V c 2 t) (iblk2 V c 4 t) (iblk2 V c 3 t) j
      = conv (V c main_v43) (V c main_v33) (V c main_arg7) (V c main_arg9) (V c main_v44) (((cfg2.win 5).blk t).view.emb j)
  refine (congrArg _ (eq_ix2 j)).trans (layer_at_block_row V c t (j 0) (j 1) _ ?_ ?_)
  · show win2_5.index t (0 : Fin 2) * 5000 + 1 * (j 0).val = t.val * 5000 + (j 0).val; omega
  · show win2_5.index t (1 : Fin 2) * 1 + 1 * (j 1).val = (j 1).val; omega

/-! ## The blocks tile the rows -/

/-- An index of the output is in block t iff each coordinate is in the block's range on its axis. -/
theorem mem_blk (t : Fin cfg2.N) (i : S100000x1.Idx) :
    i ∈ ((cfg2.win 5).blk t).view.set ↔ ∀ a : Fin 2, win2_5.index t a * S5000x1.size a ≤ (i a).val
      ∧ (i a).val < win2_5.index t a * S5000x1.size a + S5000x1.size a := by
  show i ∈ ((View.whole main_v45).slice (win2_5.rect t)).set ↔ _
  rw [View.set_slice_whole, Rect.mem_set_unit]
  exact Iff.rfl

/-- Row r is in block r / 5000. -/
theorem cover (i : S100000x1.Idx) :
    ∃ t : Fin cfg2.N, (cfg2.win 5).flush t = true ∧ i ∈ ((cfg2.win 5).blk t).view.set := by
  have hi0 : (i 0).val < 100000 := idx2_lt0 i
  have hi1 : (i 1).val < 1 := idx2_lt1 i
  have hN : cfg2.N = 20 := N_2
  let t : Fin cfg2.N := ⟨(i 0).val / 5000, by rw [hN]; omega⟩
  have ht : t.val = (i 0).val / 5000 := rfl
  obtain ⟨-, -, -, -, -, ⟨e0, e1⟩⟩ := block_positions t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-! ## The output array -/

/-- THE ARRAY the second graph convolution leaves: the layer of the arrays it found, entry by entry. -/
theorem arr (c : Dev nD) :
    (Gen.dat2 (F := Ideal) V c).arrAt 5 cfg2.N
      = GnnSpec.conv (V c main_v43) (V c main_v33) (V c main_arg7) (V c main_arg9) (V c main_v44) :=
  (dat2 (F := Ideal) V c).arrAt_eq_of_cover 5 _ (fun t _ => flushed_eq V c t) cover

end Cert.KernelIdeal.ConvSecond

end
-- ==== Proof.NormRelu.lean ====
/-
  Batch normalisation followed by the rectifier, read off the gridded program.

  The program walks the 100000 nodes in 20 blocks of 5000 rows.  At block t it holds rows 5000·t … 5000·t + 4999 of the
  layer's matrix H and the four one-row matrices of column statistics (the mean Mu, the reciprocal deviation S, the scale Ga,
  the shift Be), whole.  It stretches each row over the block's 5000 rows and forms, entry by entry,
      max( Ga(0, q) · ((H(r, q) − Mu(0, q)) · S(0, q)) + Be(0, q),  0 ),
  which it writes to the same rows of the output.  An output entry depends on its own row of H only, and the twenty blocks
  of rows tile the node axis, so the output matrix is the specification's `bnrelu` of the five input matrices.
-/
import proofs.«180626_j58274116272537_1_alg».proof.Proof.Gen.KernelIdeal.Frame
import proofs.«180626_j58274116272537_1_alg».proof.Proof.LibDenseLayers
import Idealize.ShloMosaic.Lib.Pipeline.Value
import Idealize.ShloMosaic.Lib.ValueIdx
import Idealize.ShloMosaic.Lib.ValueLayout

set_option maxRecDepth 16384

noncomputable section

namespace Cert.KernelIdeal.NormRelu

open Cert.KernelIdeal Cert.KernelIdeal.Gen Cert.GnnSpec
open Idealize.ShloMosaic Idealize.ShloMosaic.ValueIdx Idealize.ShloMosaic.TcCoe Idealize.SL.Sem
open Idealize.ShloMosaic.Pipeline (Dat)

/-- Both block offsets of a whole-block access are zero. -/
theorem offsets_zero : (![0, 0] : Fin 2 → Nat) = fun _ => 0 := funext fun a => by fin_cases a <;> rfl

/-- One entry of what a block's computation stores: the block's entry of H is centred by the column mean, scaled by the
    column's reciprocal deviation, then by the scale, shifted, and cut below at zero.  Each statistic is read from its one
    row at the entry's column. -/
theorem entry_of_block (h : Vec Ideal S5000x128 .f32) (mu s ga be : Vec Ideal S1x128 .f32) (p : Fin 5000) (q : Fin 128) :
    k1_pay1 (F := Ideal) h mu s ga be (ix2 p q)
      = max (ga (ix2 (0 : Fin 1) q) * ((h (ix2 p q) - mu (ix2 (0 : Fin 1) q)) * s (ix2 (0 : Fin 1) q))
          + be (ix2 (0 : Fin 1) q)) zeroWord := by
  unfold k1_pay1
  simp only [maximumf_apply, addf_apply, mulf_apply, subf_apply, broadcast_apply, shapeCast_self,
    broadcastTo_1b_ab_apply]
  rfl

/-- The block index maps over the grid: at point t the blocks of H and of the output are block t of the node axis and the
    only block of the feature axis, and each statistic's row is its array's only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is one of twenty. -/
theorem point_lt (t : Fin cfg1.N) : t.val < 20 := by
  exact lt_of_lt_of_eq t.isLt (show cfg1.N = 20 from N_1)

/-- Row p of block t is row 5000·t + p of the node axis. -/
def nodeRow (t : Fin cfg1.N) (p : Fin 5000) : Fin 100000 :=
  ⟨5000 * t.val + p.val, by have := point_lt t; have := p.isLt; omega⟩

/-- Where entry (p, q) of the output's block t sits in the output matrix. -/
theorem out_entry_index (t : Fin cfg1.N) (p : Fin 5000) (q : Fin 128) :
    ((cfg1.win 5).blk t).view.emb (ix2 p q) = ix2 (nodeRow t p) q := by
  obtain ⟨-, -, -, -, -, -, -, -, -, -, e0, e1⟩ := block_indices t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

/-- Entry (p, q) of H's block t is H at row 5000·t + p. -/
theorem H_block_entry (V : (c : Dev nD) → (b : Ref sig .tc) → Buf (Elt Ideal) ((c : Thread nD τ).loc b)) (c : Dev nD)
    (t : Fin cfg1.N) (p : Fin 5000) (q : Fin 128) :
    iblk1 (F := Ideal) V c 0 t (ix2 p q) = V c main_v15 (ix2 (nodeRow t p) q) := by
  obtain ⟨e0, e1, -⟩ := block_indices t
  show V c main_v15 (((cfg1.win 0).blk t).view.emb (ix2 p q)) = V c main_v15 (ix2 (nodeRow t p) q)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- The column mean's row is held whole at every point. -/
theorem mean_row (V : (c : Dev nD) → (b : Ref sig .tc) → Buf (Elt Ideal) ((c : Thread nD τ).loc b)) (c : Dev nD) (t : Fin cfg1.N) (q : Fin 128) :
    iblk1 (F := Ideal) V c 1 t (ix2 (0 : Fin 1) q) = V c main_v29 (ix2 (0 : Fin 1) q) := by
  obtain ⟨-, -, e0, e1, -⟩ := block_indices t
  show V c main_v29 (((cfg1.win 1).blk t).view.emb (ix2 (0 : Fin 1) q)) = V c main_v29 (ix2 (0 : Fin 1) q)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The reciprocal deviation's row is held whole at every point. -/
theorem deviation_row (V : (c : Dev nD) → (b : Ref sig .tc) → Buf (Elt Ideal) ((c : Thread nD τ).loc b)) (c : Dev nD) (t : Fin cfg1.N) (q : Fin 128) :
    iblk1 (F := Ideal) V c 2 t (ix2 (0 : Fin 1) q) = V c main_v30 (ix2 (0 : Fin 1) q) := by
  obtain ⟨-, -, -, -, e0, e1, -⟩ := block_indices t
  show V c main_v30 (((cfg1.win 2).blk t).view.emb (ix2 (0 : Fin 1) q)) = V c main_v30 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The scale's row is held whole at every point. -/
theorem scale_row (V : (c : Dev nD) → (b : Ref sig .tc) → Buf (Elt Ideal) ((c : Thread nD τ).loc b)) (c : Dev nD) (t : Fin cfg1.N) (q : Fin 128) :
    iblk1 (F := Ideal) V c 3 t (ix2 (0 : Fin 1) q) = V c main_v31 (ix2 (0 : Fin 1) q) := by
  obtain ⟨-, -, -, -, -, -, e0, e1, -⟩ := block_indices t
  show V c main_v31 (((cfg1.win 3).blk t).view.emb (ix2 (0 : Fin 1) q)) = V c main_v31 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The shift's row is held whole at every point. -/
theorem shift_row (V : (c : Dev nD) → (b : Ref sig .tc) → Buf (Elt Ideal) ((c : Thread nD τ).loc b)) (c : Dev nD) (t : Fin cfg1.N) (q : Fin 128) :
    iblk1 (F := Ideal) V c 4 t (ix2 (0 : Fin 1) q) = V c main_v32 (ix2 (0 : Fin 1) q) := by
  obtain ⟨-, -, -, -, -, -, -, -, e0, e1, -⟩ := block_indices t
  show V c main_v32 (((cfg1.win 4).blk t).view.emb (ix2 (0 : Fin 1) q)) = V c main_v32 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The specification's matrix of the region's five input arrays. -/
abbrev normalised (V : (c : Dev nD) → (b : Ref sig .tc) → Buf (Elt Ideal) ((c : Thread nD τ).loc b)) (c : Dev nD) : Buf (Elt Ideal) ((c : Thread nD τ).loc main_v33) :=
  bnrelu (V c main_v15) (V c main_v29) (V c main_v30) (V c main_v31) (V c main_v32)

/-- Entry (p, q) of what point t computes is the specification's entry at row 5000·t + p: the entry of H is that row's, and
    the four statistics are read at column q of their rows. -/
theorem computed_entry (V : (c : Dev nD) → (b : Ref sig .tc) → Buf (Elt Ideal) ((c : Thread nD τ).loc b)) (c : Dev nD) (t : Fin cfg1.N) (p : Fin 5000) (q : Fin 128) :
    k1_pay1 (F := Ideal) (iblk1 V c 0 t) (iblk1 V c 1 t) (iblk1 V c 2 t) (iblk1 V c 3 t) (iblk1 V c 4 t) (ix2 p q)
      = normalised V c (ix2 (nodeRow t p) q) := by
  rw [entry_of_block, H_block_entry, mean_row, deviation_row, scale_row, shift_row]
  exact (bnrelu_apply (V c main_v15) (V c main_v29) (V c main_v30) (V c main_v31) (V c main_v32) (nodeRow t p) q).symm

/-- What point t writes back is block t of the specification's matrix. -/
theorem flushed_block (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (normalised V c) := by
  show (cfg1.win 5).cut (grid1.coords t) ((dat1 (F := Ideal) V c).after 5 t) = _
  rw [after1_5]
  unfold out1_5
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = normalised V c (((cfg1.win 5).blk t).view.emb (ix2 p q))
  rw [out_entry_index]
  exact computed_entry V c t p q

/-- An index of the output matrix is in point t's block iff each coordinate is in the block's range on its axis. -/
theorem mem_block (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v33).slice (win1_5.rect t)).set ↔ _
  rw [View.set_slice_whole, Rect.mem_set_unit]
  exact Iff.rfl

/-- The twenty blocks of rows tile the node axis: row r is in block r / 5000, and every column is in the one block of
    the feature axis. -/
theorem blocks_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, e0, e1⟩ := block_indices t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The region's output array, once every point has written its block back, is the specification's batch normalisation and
    rectifier of the region's five input arrays as the region finds them. -/
theorem arr (V : (c : Dev nD) → (b : Ref sig .tc) → Buf (Elt Ideal) ((c : Thread nD τ).loc b)) (c : Dev nD) :
    (Gen.dat1 (F := Ideal) V c).arrAt 5 cfg1.N
      = GnnSpec.bnrelu (V c main_v15) (V c main_v29) (V c main_v30) (V c main_v31) (V c main_v32) :=
  (dat1 (F := Ideal) V c).arrAt_eq_of_cover 5 (normalised V c) (fun t _ => flushed_block V c t) blocks_cover

end Cert.KernelIdeal.NormRelu

end
-- ==== Proof.Chain.lean ====
/-
  The kernel program's returned vector, stage by stage, is the reference's.

  The program alternates host stretches with three gridded regions.  Its buffers after each stretch and each region are a
  fold from the launch memory; here that fold is read at the buffers the next stage consumes, one boundary at a time, and
  each value is identified with the reference program's value of the same stage (a function of the argument arrays):
    · after the first stretch: the neighbour aggregation of the node features, the bias as a one-row matrix, and the two
      edge lists (source and destination node of every edge) — the very host operations the reference applies;
    · after the first region: the first layer's output — the region computes the specification's `conv` of its input
      arrays, which is the reference's first layer;
    · after the second stretch: the column mean and the reciprocal deviation of that output, as one-row matrices — again
      the reference's own operations, applied to equal arrays;
    · after the second region: the normalised, rectified features (`bnrelu`);
    · after the third stretch: their neighbour aggregation, over the same edge lists;
    · after the third region: the second layer's output (`conv`), and after the last stretch its reshape to a vector.
  An argument array is never written, so it reads back as launched at every boundary.
-/
import proofs.«180626_j58274116272537_1_alg».proof.Proof.Gen.KernelIdeal.Frame
import proofs.«180626_j58274116272537_1_alg».proof.Proof.Gen.ReferenceIdeal.Read
import proofs.«180626_j58274116272537_1_alg».proof.Proof.RefStages
import proofs.«180626_j58274116272537_1_alg».proof.Proof.ConvFirst
import proofs.«180626_j58274116272537_1_alg».proof.Proof.ConvSecond
import proofs.«180626_j58274116272537_1_alg».proof.Proof.NormRelu

set_option maxRecDepth 16384

noncomputable section

namespace Cert.KernelIdeal.Chain

open Cert.KernelIdeal Cert.KernelIdeal.Gen Cert.GnnSpec Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays read back as launched -/

theorem w1_arg0 : W1 m ρ c (Proc.devRef .tc main_arg0) = (m ((c : Thread nD τ).loc main_arg0)) := by
  show StableHlo.after hostOps0 (W0 m ρ c) (Proc.devRef .tc main_arg0) = _
  dsimp only [hostOps0]
  after_results
  try rfl
theorem w1_arg2 : W1 m ρ c (Proc.devRef .tc main_arg2) = (m ((c : Thread nD τ).loc main_arg2)) := by
  show StableHlo.after hostOps0 (W0 m ρ c) (Proc.devRef .tc main_arg2) = _
  dsimp only [hostOps0]
  after_results
  try rfl
theorem w1_arg4 : W1 m ρ c (Proc.devRef .tc main_arg4) = (m ((c : Thread nD τ).loc main_arg4)) := by
  show StableHlo.after hostOps0 (W0 m ρ c) (Proc.devRef .tc main_arg4) = _
  dsimp only [hostOps0]
  after_results
  try rfl
theorem w1_arg5 : W1 m ρ c (Proc.devRef .tc main_arg5) = (m ((c : Thread nD τ).loc main_arg5)) := by
  show StableHlo.after hostOps0 (W0 m ρ c) (Proc.devRef .tc main_arg5) = _
  dsimp only [hostOps0]
  after_results
  try rfl
theorem w1_arg6 : W1 m ρ c (Proc.devRef .tc main_arg6) = (m ((c : Thread nD τ).loc main_arg6)) := by
  show StableHlo.after hostOps0 (W0 m ρ c) (Proc.devRef .tc main_arg6) = _
  dsimp only [hostOps0]
  after_results
  try rfl
theorem w1_arg7 : W1 m ρ c (Proc.devRef .tc main_arg7) = (m ((c : Thread nD τ).loc main_arg7)) := by
  show StableHlo.after hostOps0 (W0 m ρ c) (Proc.devRef .tc main_arg7) = _
  dsimp only [hostOps0]
  after_results
  try rfl
theorem w1_arg8 : W1 m ρ c (Proc.devRef .tc main_arg8) = (m ((c : Thread nD τ).loc main_arg8)) := by
  show StableHlo.after hostOps0 (W0 m ρ c) (Proc.devRef .tc main_arg8) = _
  dsimp only [hostOps0]
  after_results
  try rfl
theorem w1_arg9 : W1 m ρ c (Proc.devRef .tc main_arg9) = (m ((c : Thread nD τ).loc main_arg9)) := by
  show StableHlo.after hostOps0 (W0 m ρ c) (Proc.devRef .tc main_arg9) = _
  dsimp only [hostOps0]
  after_results
  try rfl
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w3_arg7 : W3 m ρ c (Proc.devRef .tc main_arg7) = (m ((c : Thread nD τ).loc main_arg7)) := by
  show StableHlo.after hostOps1 (W2 m ρ c) (Proc.devRef .tc main_arg7) = _
  dsimp only [hostOps1]
  after_results
  exact w2_arg7 m ρ c
theorem w4_arg7 : W4 m ρ c (Proc.devRef .tc main_arg7) = (m ((c : Thread nD τ).loc main_arg7)) :=
  (W4_of_ne m ρ c main_arg7 (by decide)).trans (w3_arg7 m ρ c)
theorem w3_arg8 : W3 m ρ c (Proc.devRef .tc main_arg8) = (m ((c : Thread nD τ).loc main_arg8)) := by
  show StableHlo.after hostOps1 (W2 m ρ c) (Proc.devRef .tc main_arg8) = _
  dsimp only [hostOps1]
  after_results
  exact w2_arg8 m ρ c
theorem w4_arg8 : W4 m ρ c (Proc.devRef .tc main_arg8) = (m ((c : Thread nD τ).loc main_arg8)) :=
  (W4_of_ne m ρ c main_arg8 (by decide)).trans (w3_arg8 m ρ c)
theorem w3_arg9 : W3 m ρ c (Proc.devRef .tc main_arg9) = (m ((c : Thread nD τ).loc main_arg9)) := by
  show StableHlo.after hostOps1 (W2 m ρ c) (Proc.devRef .tc main_arg9) = _
  dsimp only [hostOps1]
  after_results
  exact w2_arg9 m ρ c
theorem w4_arg9 : W4 m ρ c (Proc.devRef .tc main_arg9) = (m ((c : Thread nD τ).loc main_arg9)) :=
  (W4_of_ne m ρ c main_arg9 (by decide)).trans (w3_arg9 m ρ c)
theorem w5_arg7 : W5 m ρ c (Proc.devRef .tc main_arg7) = (m ((c : Thread nD τ).loc main_arg7)) := by
  show StableHlo.after hostOps2 (W4 m ρ c) (Proc.devRef .tc main_arg7) = _
  dsimp only [hostOps2]
  after_results
  exact w4_arg7 m ρ c
theorem w5_arg9 : W5 m ρ c (Proc.devRef .tc main_arg9) = (m ((c : Thread nD τ).loc main_arg9)) := by
  show StableHlo.after hostOps2 (W4 m ρ c) (Proc.devRef .tc main_arg9) = _
  dsimp only [hostOps2]
  after_results
  exact w4_arg9 m ρ c

/-! ## The edge lists, from the first stretch to the third -/

theorem w1_src : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results
  try rfl
theorem w2_src : W2 m ρ c (Proc.devRef .tc main_v1) = val_main_v1 (F := Ideal) (m ((c : Thread nD τ).loc main_arg1)) :=
  (W2_of_ne m ρ c main_v1 (by decide)).trans (w1_src m ρ c)
theorem w3_src : W3 m ρ c (Proc.devRef .tc main_v1) = val_main_v1 (F := Ideal) (m ((c : Thread nD τ).loc main_arg1)) := by
  show StableHlo.after hostOps1 (W2 m ρ c) (Proc.devRef .tc main_v1) = _
  dsimp only [hostOps1]
  after_results
  exact w2_src m ρ c
theorem w4_src : W4 m ρ c (Proc.devRef .tc main_v1) = val_main_v1 (F := Ideal) (m ((c : Thread nD τ).loc main_arg1)) :=
  (W4_of_ne m ρ c main_v1 (by decide)).trans (w3_src m ρ c)
theorem w1_dst : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  try rfl
theorem w2_dst : W2 m ρ c (Proc.devRef .tc main_v3) = val_main_v3 (F := Ideal) (m ((c : Thread nD τ).loc main_arg1)) :=
  (W2_of_ne m ρ c main_v3 (by decide)).trans (w1_dst m ρ c)
theorem w3_dst : W3 m ρ c (Proc.devRef .tc main_v3) = val_main_v3 (F := Ideal) (m ((c : Thread nD τ).loc main_arg1)) := by
  show StableHlo.after hostOps1 (W2 m ρ c) (Proc.devRef .tc main_v3) = _
  dsimp only [hostOps1]
  after_results
  exact w2_dst m ρ c
theorem w4_dst : W4 m ρ c (Proc.devRef .tc main_v3) = val_main_v3 (F := Ideal) (m ((c : Thread nD τ).loc main_arg1)) :=
  (W4_of_ne m ρ c main_v3 (by decide)).trans (w3_dst m ρ c)

/-! ## The first stretch and the first layer -/

theorem w1_agg : W1 m ρ c (Proc.devRef .tc main_v13) = val_main_v13 (F := Ideal) (m ((c : Thread nD τ).loc main_arg0)) (m ((c : Thread nD τ).loc main_arg1)) := by
  show StableHlo.after hostOps0 (W0 m ρ c) (Proc.devRef .tc main_v13) = _
  dsimp only [hostOps0]
  after_results
  try rfl

theorem w1_bias : W1 m ρ c (Proc.devRef .tc main_v14) = shapeCast S1x128 (m ((c : Thread nD τ).loc main_arg3)) shapeCasts_S128_S1x128 := by
  show StableHlo.after hostOps0 (W0 m ρ c) (Proc.devRef .tc main_v14) = _
  dsimp only [hostOps0]
  after_results
  try rfl

theorem w2_layer1 : W2 m ρ c (Proc.devRef .tc main_v15) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (ConvFirst.arr (V1 m ρ) c).trans ?_
  show conv (W1 m ρ c (Proc.devRef .tc main_v13)) (W1 m ρ c (Proc.devRef .tc main_arg0)) (W1 m ρ c (Proc.devRef .tc main_arg2))
    (W1 m ρ c (Proc.devRef .tc main_arg4)) (W1 m ρ c (Proc.devRef .tc main_v14)) = _
  rw [w1_agg, w1_arg0, w1_arg2, w1_arg4, w1_bias]
  exact (Cert.ReferenceIdeal.Stages.layer1 shapeCasts_S128_S1x128 (m ((c : Thread nD τ).loc main_arg0)) (m ((c : Thread nD τ).loc main_arg1)) (m ((c : Thread nD τ).loc main_arg2)) (m ((c : Thread nD τ).loc main_arg3)) (m ((c : Thread nD τ).loc main_arg4))).symm

/-! ## The second stretch and the normalisation -/

theorem w3_layer1 : W3 m ρ c (Proc.devRef .tc main_v15) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v15) = _
  dsimp only [hostOps1]
  after_results
  exact w2_layer1 m ρ c

theorem w3_mean : W3 m ρ c (Proc.devRef .tc main_v29) = shapeCast S1x128 (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S128_S1x128 := by
  show StableHlo.after hostOps1 (W2 m ρ c) (Proc.devRef .tc main_v29) = _
  dsimp only [hostOps1]
  after_results
  rw [w2_layer1]
  rfl

theorem w3_dev : W3 m ρ c (Proc.devRef .tc main_v30) = shapeCast S1x128 (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S128_S1x128 := by
  show StableHlo.after hostOps1 (W2 m ρ c) (Proc.devRef .tc main_v30) = _
  dsimp only [hostOps1]
  after_results
  rw [w2_layer1]
  rfl

theorem w3_scale : W3 m ρ c (Proc.devRef .tc main_v31) = shapeCast S1x128 (m ((c : Thread nD τ).loc main_arg5)) shapeCasts_S128_S1x128 := by
  show StableHlo.after hostOps1 (W2 m ρ c) (Proc.devRef .tc main_v31) = _
  dsimp only [hostOps1]
  after_results
  rw [w2_arg5]
  rfl

theorem w3_shift : W3 m ρ c (Proc.devRef .tc main_v32) = shapeCast S1x128 (m ((c : Thread nD τ).loc main_arg6)) shapeCasts_S128_S1x128 := by
  show StableHlo.after hostOps1 (W2 m ρ c) (Proc.devRef .tc main_v32) = _
  dsimp only [hostOps1]
  after_results
  rw [w2_arg6]
  rfl

theorem w4_norm : W4 m ρ c (Proc.devRef .tc main_v33) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  refine (NormRelu.arr (V3 m ρ) c).trans ?_
  show bnrelu (W3 m ρ c (Proc.devRef .tc main_v15)) (W3 m ρ c (Proc.devRef .tc main_v29)) (W3 m ρ c (Proc.devRef .tc main_v30))
    (W3 m ρ c (Proc.devRef .tc main_v31)) (W3 m ρ c (Proc.devRef .tc main_v32)) = _
  rw [w3_layer1, w3_mean, w3_dev, w3_scale, w3_shift]
  exact (Cert.ReferenceIdeal.Stages.norm shapeCasts_S128_S1x128 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-! ## The third stretch and the second layer -/

theorem w5_norm : W5 m ρ c (Proc.devRef .tc main_v33) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v33) = _
  dsimp only [hostOps2]
  after_results
  exact w4_norm m ρ c

set_option maxHeartbeats 1000000 in
theorem w5_agg : W5 m ρ c (Proc.devRef .tc main_v43) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v43) = _
  dsimp only [hostOps2]
  after_results_simp
  rw [w4_norm, w4_src, w4_dst]
  rfl

theorem w5_bias : W5 m ρ c (Proc.devRef .tc main_v44) = shapeCast S1x1 (m ((c : Thread nD τ).loc main_arg8)) shapeCasts_S1_S1x1 := by
  show StableHlo.after hostOps2 (W4 m ρ c) (Proc.devRef .tc main_v44) = _
  dsimp only [hostOps2]
  after_results
  rw [w4_arg8]
  rfl

theorem w6_layer2 : W6 m ρ c (Proc.devRef .tc main_v45) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  refine (ConvSecond.arr (V5 m ρ) c).trans ?_
  show conv (W5 m ρ c (Proc.devRef .tc main_v43)) (W5 m ρ c (Proc.devRef .tc main_v33)) (W5 m ρ c (Proc.devRef .tc main_arg7))
    (W5 m ρ c (Proc.devRef .tc main_arg9)) (W5 m ρ c (Proc.devRef .tc main_v44)) = _
  rw [w5_agg, w5_norm, w5_arg7, w5_arg9, w5_bias]
  exact (Cert.ReferenceIdeal.Stages.layer2 shapeCasts_S1_S1x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## The returned vector -/

/-- The returned vector is the reference's last stage at the launch contents of the argument arrays. -/
theorem result : W7 m ρ c (Proc.devRef .tc main_v46) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v46) = _
  dsimp only [hostOps3]
  after_results
  rw [w6_layer2]
  rfl

end Cert.KernelIdeal.Chain

end
-- ==== Proof.lean ====
/-
  A two-layer graph network, gridded over blocks of nodes, against its whole-array reference, on the extended reals.

  Both programs aggregate each node's neighbours by a row gather followed by a scatter-add over the edge list, apply a
  graph-convolution layer  h = agg · Wr + b + x · Wo,  normalise every feature column of h by its mean and reciprocal
  deviation (batch statistics, with the same small constant under the root), scale, shift and rectify, aggregate again and
  apply a second graph-convolution layer into one column, returned as a vector.  The host operations (gather, scatter-add,
  column sums, division by the node count, reciprocal root, reshapes) are the same operations in both programs and are
  carried as they stand.  The kernel program computes the three dense stages inside gridded regions, 5000 rows of nodes at
  a time: an entry of a dense stage depends on its own row only, so the 20 blocks written back are the blocks of the
  whole-array stage, and they tile the 100000 rows.  On the extended reals a change of float format is the identity, a
  matrix product into a zero accumulator is the plain sum of products, and the one rearrangement between the two programs is
  γ · ((h − μ) · s) against (γ · (h − μ)) · s, equal because multiplication there is associative; the precondition's
  finiteness is never used.  Nothing was rewritten by the idealization, so `preserves` asks nothing.

  The kernel program's run with its result named is `RunValue.run`; that the result is the reference's last stage at the
  launch contents of the arguments is `Chain.result`; the reference's run is its own read-back.
-/
import proofs.«180626_j58274116272537_1_alg».proof.Defs
import proofs.«180626_j58274116272537_1_alg».proof.Proof.Gen.Kernel
import proofs.«180626_j58274116272537_1_alg».proof.Proof.Gen.Kernel.Skeleton
import proofs.«180626_j58274116272537_1_alg».proof.Proof.Gen.Kernel.Launch
import proofs.«180626_j58274116272537_1_alg».proof.Proof.Gen.Kernel.Points
import proofs.«180626_j58274116272537_1_alg».proof.Proof.Gen.Kernel.Frame
import proofs.«180626_j58274116272537_1_alg».proof.Proof.Gen.KernelIdeal
import proofs.«180626_j58274116272537_1_alg».proof.Proof.Gen.KernelIdeal.Skeleton
import proofs.«180626_j58274116272537_1_alg».proof.Proof.Gen.KernelIdeal.Launch
import proofs.«180626_j58274116272537_1_alg».proof.Proof.Gen.KernelIdeal.Points
import proofs.«180626_j58274116272537_1_alg».proof.Proof.Gen.KernelIdeal.Frame
import proofs.«180626_j58274116272537_1_alg».proof.Proof.Gen.ReferenceIdeal
import proofs.«180626_j58274116272537_1_alg».proof.Proof.Gen.Pre_finite_inputs
import proofs.«180626_j58274116272537_1_alg».proof.Proof.Gen.ReferenceIdeal.Run
import proofs.«180626_j58274116272537_1_alg».proof.Proof.Gen.ReferenceIdeal.Read
import proofs.«180626_j58274116272537_1_alg».proof.Proof.RunValue
import proofs.«180626_j58274116272537_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the returned vector at the reference's last stage of the (agreeing) argument arrays. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v62_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
